-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S128x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S16384x128 : Shape := ⟨2, ![16384, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096 : S_.BroadcastsInDim S4096 (![] : Fin 0 → Fin S4096.rank)
  reducesTo_S4096_S_d0 : S4096.ReducesTo [0] S_
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S4096x128 .f32) (main_arg1 : FVec F S4096 .f32) (main_arg2 : FVec F S16384x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  main_v13
-- ==== Kernel.lean ====
abbrev S4096x128 : Shape := ⟨2, ![4096, 128]⟩
abbrev S4096 : Shape := ⟨1, ![4096]⟩
abbrev S16384x128 : Shape := ⟨2, ![16384, 128]⟩
abbrev S_ : Shape := ⟨0, ![]⟩
abbrev S4096x1 : Shape := ⟨2, ![4096, 1]⟩
abbrev S16384 : Shape := ⟨1, ![16384]⟩
abbrev S1x16384 : Shape := ⟨2, ![1, 16384]⟩
abbrev S128x128 : Shape := ⟨2, ![128, 128]⟩
abbrev S128x1 : Shape := ⟨2, ![128, 1]⟩
abbrev S128x16384 : Shape := ⟨2, ![128, 16384]⟩
abbrev S128 : Shape := ⟨1, ![128]⟩

abbrev nBuf : Space → Nat
  | .hbm => 51
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S4096, .f32⟩
  | .hbm, ⟨2, _⟩ => ⟨S16384x128, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096x1, .f32⟩
  | .hbm, ⟨41, _⟩ => ⟨S4096x1, .f32⟩
  | .hbm, ⟨42, _⟩ => ⟨S16384x128, .f32⟩
  | .hbm, ⟨43, _⟩ => ⟨S_, .f32⟩
  | .hbm, ⟨44, _⟩ => ⟨S16384, .f32⟩
  | .hbm, ⟨45, _⟩ => ⟨S1x16384, .f32⟩
  | .hbm, ⟨46, _⟩ => ⟨S16384x128, .bf16⟩
  | .hbm, ⟨47, _⟩ => ⟨S16384x128, .f32⟩
  | .hbm, ⟨48, _⟩ => ⟨S16384x128, .f32⟩
  | .hbm, ⟨49, _⟩ => ⟨S16384x128, .bf16⟩
  | .hbm, ⟨50, _⟩ => ⟨S4096x128, .f32⟩
  | .local _ .vmem, ⟨0, _⟩ => ⟨S128x128, .f32⟩
  | .local _ .vmem, ⟨1, _⟩ => ⟨S128x128, .f32⟩
  | .local _ .vmem, ⟨2, _⟩ => ⟨S16384x128, .bf16⟩
  | .local _ .vmem, ⟨3, _⟩ => ⟨S16384x128, .bf16⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S1x16384, .f32⟩
  | .local _ .vmem, ⟨11, _⟩ => ⟨S128x128, .f32⟩
  | .local _ .vmem, ⟨12, _⟩ => ⟨S128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4096 : S_.BroadcastsInDim S4096 (![] : Fin 0 → Fin S4096.rank)
  shapeCasts_S4096_S4096x1 : S4096.ShapeCasts S4096x1
  reducesTo_S16384x128_S16384_d1 : S16384x128.ReducesTo [1] S16384
  h_S_ : 0 < S_.numel
  shapeCasts_S16384_S1x16384 : S16384.ShapeCasts S1x16384
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S128x1_S128x16384 : S128x1.Broadcasts S128x16384
  broadcasts_S1x16384_S128x16384 : S1x16384.Broadcasts S128x16384
  reduces_S128x16384_S128 : S128x16384.Reduces [1] S128
  shapeCasts_S128_S128x1 : S128.ShapeCasts S128x1
  broadcasts_S128x1_S128x128 : S128x1.Broadcasts S128x128
  dot_S128x128_S16384x128_S128x16384_1_1_0_0_n_n_wf : DotDims.WF S128x128 S16384x128 S128x16384 [1] [1] [0] [0] [] []
  dot_S128x16384_S16384x128_S128x128_1_0_0_1_n_n_wf : DotDims.WF S128x16384 S16384x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S16384x128.size a
  hwx0_2 : ∀ i : grid0.Coords, EltTy.bits .bf16 = 32 ∨ (Rect.block (s := S16384x128) S16384x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16384.size a ≤ S1x16384.size a
  hwx0_6 : ∀ i : grid0.Coords, EltTy.bits .f32 = 32 ∨ (Rect.block (s := S1x16384) S1x16384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S4096x128.size a
  hwx0_7 : ∀ i : grid0.Coords, EltTy.bits .f32 = 32 ∨ (Rect.block (s := S4096x128) S128x128.size (cc0_transform_7 i) (hinb0_7 i)).WholeWords (EltTy.packing .f32)

variable [Facts₀]

def dot_S128x128_S16384x128_S128x16384_1_1_0_0_n_n : DotDims S128x128 S16384x128 S128x16384 where
  lhsContracting := [1]
  rhsContracting := [1]
  lhsNonContracting := [0]
  rhsNonContracting := [0]
  lhsBatch := []
  rhsBatch := []
  wf := dot_S128x128_S16384x128_S128x16384_1_1_0_0_n_n_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S16384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S128x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x16384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S16384x128 : Shape := ⟨2, ![16384, 128]⟩
abbrev S_ : Shape := ⟨0, ![]⟩
abbrev S4096x16384 : Shape := ⟨2, ![4096, 16384]⟩
abbrev S16384 : Shape := ⟨1, ![16384]⟩
abbrev S4096x1 : Shape := ⟨2, ![4096, 1]⟩
abbrev S1x16384 : Shape := ⟨2, ![1, 16384]⟩

abbrev nBuf : Space → Nat
  | .hbm => 86
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .f32⟩
  | .hbm, ⟨2, _⟩ => ⟨S16384x128, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x16384, .f32⟩
  | .hbm, ⟨34, _⟩ => ⟨S4096x128, .f32⟩
  | .hbm, ⟨35, _⟩ => ⟨S_, .f32⟩
  | .hbm, ⟨36, _⟩ => ⟨S4096, .f32⟩
  | .hbm, ⟨37, _⟩ => ⟨S16384x128, .f32⟩
  | .hbm, ⟨38, _⟩ => ⟨S_, .f32⟩
  | .hbm, ⟨39, _⟩ => ⟨S16384, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x16384, .f32⟩
  | .hbm, ⟨46, _⟩ => ⟨S4096x16384, .f32⟩
  | .hbm, ⟨47, _⟩ => ⟨S4096x16384, .f32⟩
  | .hbm, ⟨48, _⟩ => ⟨S4096x16384, .f32⟩
  | .hbm, ⟨49, _⟩ => ⟨S4096, .f32⟩
  | .hbm, ⟨50, _⟩ => ⟨S4096x1, .f32⟩
  | .hbm, ⟨51, _⟩ => ⟨S1x16384, .f32⟩
  | .hbm, ⟨52, _⟩ => ⟨S4096x16384, .f32⟩
  | .hbm, ⟨53, _⟩ => ⟨S4096x16384, .f32⟩
  | .hbm, ⟨54, _⟩ => ⟨S4096x16384, .f32⟩
  | .hbm, ⟨55, _⟩ => ⟨S4096x16384, .f32⟩
  | .hbm, ⟨56, _⟩ => ⟨S_, .f32⟩
  | .hbm, ⟨57, _⟩ => ⟨S4096x16384, .f32⟩
  | .hbm, ⟨58, _⟩ => ⟨S4096x16384, .f32⟩
  | .hbm, ⟨59, _⟩ => ⟨S4096x1, .f32⟩
  | .hbm, ⟨60, _⟩ => ⟨S4096x16384, .f32⟩
  | .hbm, ⟨61, _⟩ => ⟨S4096x16384, .f32⟩
  | .hbm, ⟨62, _⟩ => ⟨S_, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S4096x1, .f32⟩
  | .hbm, ⟨68, _⟩ => ⟨S4096x16384, .f32⟩
  | .hbm, ⟨69, _⟩ => ⟨S4096x16384, .f32⟩
  | .hbm, ⟨70, _⟩ => ⟨S4096x16384, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x16384, .f32⟩
  | .hbm, ⟨75, _⟩ => ⟨S4096x16384, .f32⟩
  | .hbm, ⟨76, _⟩ => ⟨S4096x128, .f32⟩
  | .hbm, ⟨77, _⟩ => ⟨S4096x128, .i1⟩
  | .hbm, ⟨78, _⟩ => ⟨S_, .f32⟩
  | .hbm, ⟨79, _⟩ => ⟨S_, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S4096x1, .f32⟩
  | .hbm, ⟨84, _⟩ => ⟨S4096x128, .f32⟩
  | .hbm, ⟨85, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_13 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_14 : Ref sig .tc := ⟨.hbm, 78, rfl⟩
abbrev main_call0_v0 : Ref sig .tc := ⟨.hbm, 79, rfl⟩
abbrev main_call0_v1 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  reducesTo_S4096x128_S4096_d1 : S4096x128.ReducesTo [1] S4096
  h_S_ : 0 < S_.numel
  reducesTo_S16384x128_S16384_d1 : S16384x128.ReducesTo [1] S16384
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  reducesTo_S4096x16384_S4096_d1 : S4096x16384.ReducesTo [1] S4096
  bcast_S_S4096x128 : S_.BroadcastsInDim S4096x128 (![] : Fin 0 → Fin S4096x128.rank)
  bcast_S4096x1_S4096x128_0_1 : S4096x1.BroadcastsInDim S4096x128 (![0, 1] : Fin 2 → Fin S4096x128.rank)
  dot_S4096x128_S16384x128_S4096x16384_1_1_0_0_n_n_wf : DotDims.WF S4096x128 S16384x128 S4096x16384 [1] [1] [0] [0] [] []
  dot_S4096x16384_S16384x128_S4096x128_1_0_0_1_n_n_wf : DotDims.WF S4096x16384 S16384x128 S4096x128 [1] [0] [0] [1] [] []

variable [Facts₀]

def dot_S4096x128_S16384x128_S4096x16384_1_1_0_0_n_n : DotDims S4096x128 S16384x128 S4096x16384 where
  lhsContracting := [1]
  rhsContracting := [1]
  lhsNonContracting := [0]
  rhsNonContracting := [0]
  lhsBatch := []
  rhsBatch := []
  wf := dot_S4096x128_S16384x128_S4096x16384_1_1_0_0_n_n_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf

class Facts : Prop extends Facts₀ where

variable [Facts]
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.Finite.lean ====
/-
  Finite inputs are real numbers.

  The precondition says that every entry of the three argument arrays has absolute value below plus infinity. On
  the extended reals that is exactly: the entry is neither infinity, so it is a real number. The scale factors the
  two programs derive from the time array are then real as well: the mean exp(−t²·19.9/4 − t·0.1/2) is an exponential
  of a real, and the inverse variance 1/σ² has σ² = max(1 − exp(2·log mean), c) with c the positive constant near
  1e-12, a real that is at least c > 0, whose square root squared is again a positive real.
-/
import proofs.«171520_j7112465842631_2_alg».proof.Pre_finite_inputs
import proofs.«171520_j7112465842631_2_alg».proof.Proof.Gen.Pre_finite_inputs
import proofs.«171520_j7112465842631_2_alg».proof.Proof.LibRealEntries
import Idealize.ShloMosaic.Lib.ReduceAll
import Idealize.ShloMosaic.Lib.ValueIdx
import Idealize.ShloMosaic.PureOps.Ideal.Laws

noncomputable section

namespace Cert.Gmm

open Idealize.ShloMosaic Idealize.ShloMosaic.ValueIdx Cert.Algebra

/-- The pattern of plus infinity denotes the top element. -/
theorem ofBits_pinf : Ideal.ofBits .f32 0x7F800000#32 = ⊤ := by
  simp [Ideal.ofBits, Ideal.ieee]

/-- An extended real whose absolute value is below the top is a real number. -/
theorem isReal_of_abs_lt_top (x : EReal) (h : max x (-x) < ⊤) : IsReal x := by
  induction x using EReal.rec with
  | bot => exact absurd h (by simp)
  | coe r => exact ⟨r, rfl⟩
  | top => exact absurd h (by simp)

instance : Subsingleton (⟨0, ![]⟩ : Shape).Idx := ⟨fun a b => funext fun d => d.elim0⟩

/-- An array all of whose entries compare below plus infinity in absolute value has real entries. -/
theorem isReal_of_lt_inf {s : Shape} (a : FVec Ideal s .f32) (i : s.Idx)
    (h : FloatOps.cmpf (F := Ideal) .olt (FloatOps.hostAbsf (a i)) (Ideal.ofBits .f32 0x7F800000#32) = 1#1) : IsReal (a i) := by
  refine isReal_of_abs_lt_top _ ?_
  have h' : Ideal.cmp .olt (max (a i) (-(a i))) (Ideal.ofBits .f32 0x7F800000#32) = 1#1 := h
  rw [ofBits_pinf] at h'
  by_contra hn
  simp [Ideal.cmp, hn] at h'

/-- Under the precondition every entry of the three argument arrays is a real number. -/
theorem real_of_pre (a0 : FVec Ideal Cert.Pre_finite_inputs.S4096x128 .f32) (a1 : FVec Ideal Cert.Pre_finite_inputs.S4096 .f32)
    (a2 : FVec Ideal Cert.Pre_finite_inputs.S16384x128 .f32)
    (h : Cert.Pre_finite_inputs.fn (F := Ideal) a0 a1 a2 = fun _ => 1#1) :
    (∀ i, IsReal (a0 i)) ∧ (∀ i, IsReal (a1 i)) ∧ (∀ i, IsReal (a2 i)) := by
  have e := congrFun h ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · have := Host.reduce_andi_all _ _ _ _ ix0 e0 i
    exact isReal_of_lt_inf a0 i this
  · have := Host.reduce_andi_all _ _ _ _ ix0 e1 i
    exact isReal_of_lt_inf a1 i this
  · have := Host.reduce_andi_all _ _ _ _ ix0 e2 i
    exact isReal_of_lt_inf a2 i this

end Cert.Gmm

end
-- ==== Proof.ScaleReal.lean ====
/-
  The two per-row scale factors are real numbers when the times are.

  With t a real time, log mean = (−1/4 · t²) · 19.9 − (1/2 · t) · 0.1 is real, so the mean exp(log mean) is real;
  σ² = max(1 − exp(2 · log mean), c) with c the positive constant near 1e-12 is a real at least c, hence positive; its
  square root is a positive real, the square of that root a positive real, and 1 divided by it a real.
-/
import proofs.«171520_j7112465842631_2_alg».proof.Proof.Gen.ReferenceIdeal.Read
import proofs.«171520_j7112465842631_2_alg».proof.Proof.LibRealEntries
import Idealize.ShloMosaic.PureOps.Ideal

noncomputable section

namespace Cert.Gmm

open Idealize.ShloMosaic Cert.Algebra Cert.ReferenceIdeal Cert.ReferenceIdeal.Read

/-- An extended real that is a positive real number. -/
def IsPosReal (x : EReal) : Prop := ∃ r : ℝ, 0 < r ∧ x = (r : EReal)

theorem IsPosReal.isReal {x : EReal} (h : IsPosReal x) : IsReal x := by
  obtain ⟨r, _, e⟩ := h; exact ⟨r, e⟩

/-- The maximum of a real and a positive real is a positive real. -/
theorem IsPosReal.max_right {x c : EReal} (hx : IsReal x) (hc : IsPosReal c) : IsPosReal (max x c) := by
  obtain ⟨a, rfl⟩ := hx; obtain ⟨b, hb, rfl⟩ := hc
  refine ⟨max a b, lt_of_lt_of_le hb (le_max_right a b), ?_⟩
  rcases le_total a b with h | h
  · rw [max_eq_right h, max_eq_right (EReal.coe_le_coe_iff.2 h)]
  · rw [max_eq_left h, max_eq_left (EReal.coe_le_coe_iff.2 h)]

/-- The square root of a positive real is a positive real. -/
theorem IsPosReal.sqrt {x : EReal} (h : IsPosReal x) : IsPosReal (Ideal.sqrt x) := by
  obtain ⟨r, hr, rfl⟩ := h
  refine ⟨Real.sqrt r, Real.sqrt_pos.2 hr, ?_⟩
  rw [Ideal.sqrt_coe, if_neg (not_lt.2 hr.le)]

theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A real divided by a positive real is a real. -/
theorem isReal_div_pos {x y : EReal} (hx : IsReal x) (hy : IsPosReal y) : IsReal (Ideal.div x y) := by
  obtain ⟨b, hb, rfl⟩ := hy
  exact hx.div_real hb.ne'

/-- The exponential of a real is a real. -/
theorem isReal_exp {x : EReal} (hx : IsReal x) : IsReal (Ideal.exp x) := by
  obtain ⟨a, rfl⟩ := hx; exact ⟨Real.exp a, rfl⟩

/-- A single-precision pattern whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only [if_neg h]
  split <;> exact ⟨_, rfl⟩

/-- The floor constant under the square root, the single-precision number nearest 1e-12, is positive. -/
theorem isPosReal_floor : IsPosReal (Ideal.ofBits .f32 0x2B8CBCCC#32) := by
  refine ⟨9223372 * (2 : ℝ) ^ (-63 : ℤ), by positivity, ?_⟩
  simp [Ideal.ofBits, Ideal.ieee, -EReal.coe_mul]

variable (t : (⟨S4096, .f32⟩ : BufTy).Contents (Elt Ideal)) (ht : ∀ i, IsReal (t i))
include ht

/-- The logarithm of the mean at a real time is real. -/
theorem isReal_logMean (i : S4096.Idx) : IsReal (val_main_v9 (F := Ideal) t i) := by
  simp only [val_main_v9_apply, val_main_v4_apply, val_main_v8_apply, val_main_v2_apply, val_main_v6_apply, val_main_v0_apply,
    val_main_v1_apply, val_main_v3_apply, val_main_v5_apply, val_main_v7_apply, val_main_cst_apply, val_main_cst_0_apply,
    val_main_cst_1_apply, val_main_cst_2_apply, Ideal.mulf_def, Ideal.subf_def, Ideal.ofBits_def]
  exact ((((isReal_ofBits_f32 _ (by decide)).mul ((ht i).mul (ht i))).mul (isReal_ofBits_f32 _ (by decide))).sub
    (((isReal_ofBits_f32 _ (by decide)).mul (ht i)).mul (isReal_ofBits_f32 _ (by decide))))

/-- The mean at a real time is real. -/
theorem isReal_mean (i : S4096.Idx) : IsReal (val_main_v10 (F := Ideal) t i) := by
  rw [val_main_v10_apply, Ideal.hostUnary_exp_def]
  exact isReal_exp (isReal_logMean t ht i)

/-- The variance at a real time is a positive real. -/
theorem isPosReal_var (i : S4096.Idx) : IsPosReal (val_main_v19 (F := Ideal) t i) := by
  have h13 : IsReal (val_main_v13 (F := Ideal) t i) := by
    simp only [val_main_v13_apply, val_main_v12_apply, val_main_v11_apply, val_main_cst_3_apply, Ideal.hostUnary_exp_def,
      Ideal.mulf_def, Ideal.ofBits_def]
    exact isReal_exp ((isReal_ofBits_f32 _ (by decide)).mul (isReal_logMean t ht i))
  have h17 : IsPosReal (val_main_v17 (F := Ideal) t i) := by
    simp only [val_main_v17_apply, val_main_v15_apply, val_main_v14_apply, val_main_v16_apply, val_main_cst_4_apply,
      val_main_cst_5_apply, Ideal.maximumf_def, Ideal.subf_def, Ideal.ofBits_def]
    exact IsPosReal.max_right ((isReal_ofBits_f32 _ (by decide)).sub h13) isPosReal_floor
  simp only [val_main_v19_apply, val_main_v18_apply, Ideal.hostUnary_sqrt_def, Ideal.mulf_def]
  exact h17.sqrt.mul h17.sqrt

/-- The inverse variance at a real time is real. -/
theorem isReal_invVar (i : S4096.Idx) : IsReal (val_main_v21 (F := Ideal) t i) := by
  simp only [val_main_v21_apply, val_main_v20_apply, val_main_cst_6_apply, Ideal.hostDivf_def, Ideal.ofBits_def]
  exact isReal_div_pos (isReal_ofBits_f32 _ (by decide)) (isPosReal_var t ht i)

end Cert.Gmm

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.Spec.lean ====
/-
  The score the two programs compute, as one function of the arrays, entry by entry.

  For a query row n with real scale factors mean(n) and iv(n), and keys y_0 … y_{16383} in R^128:

      logit(n, m)  = (iv(n) · mean(n)) · <x_n, y_m>  −  ((1/2 · iv(n)) · (mean(n) · mean(n))) · <y_m, y_m>
      weight(n, m) = exp (logit(n, m) − max over m' of logit(n, m'))
      score(n, d)  = ((sum over m of weight(n, m) · y_m[d]) / (sum over m of weight(n, m))  −  x_n[d]) · iv(n)

  This is the softmax-weighted average of the keys under a Gaussian kernel, minus the query, scaled by the inverse
  variance. The logit differs from the full log-density −1/2 · |x_n − mean(n) · y_m|² · iv(n) only by the term
  −1/2 · |x_n|² · iv(n), which does not depend on m and so cancels in the softmax.
-/
import Idealize.ShloMosaic.PureOps.Ideal
import Idealize.ShloMosaic.Lib.ValueIdx

noncomputable section

open scoped BigOperators

namespace Cert.Gmm

open Idealize.ShloMosaic Idealize.ShloMosaic.ValueIdx

/-- The extended real the single-precision pattern of one half denotes. -/
abbrev half : EReal := Ideal.ofBits .f32 0x3F000000#32

/-- The softmax-weighted average of the values v under the logits L: weights exp (L m − max L), normalised by their sum. -/
def softAvg {M : ℕ} (L v : Fin M → EReal) : EReal :=
  Ideal.div (∑ m, Ideal.exp (L m - (Finset.univ : Finset (Fin M)).fold max ⊥ L) * v m)
    (∑ m, Ideal.exp (L m - (Finset.univ : Finset (Fin M)).fold max ⊥ L))

/-- The logit of query row n against key m, without the row constant that cancels in the softmax. -/
def logit (x : (⟨2, ![4096, 128]⟩ : Shape).Idx → EReal) (mean iv : (⟨1, ![4096]⟩ : Shape).Idx → EReal)
    (y : (⟨2, ![16384, 128]⟩ : Shape).Idx → EReal) (n : Fin 4096) (m : Fin 16384) : EReal :=
  (iv (ix1 n) * mean (ix1 n)) * (∑ d : Fin 128, x (ix2 n d) * y (ix2 m d))
    - ((half * iv (ix1 n)) * (mean (ix1 n) * mean (ix1 n))) * (∑ d : Fin 128, y (ix2 m d) * y (ix2 m d))

/-- The score at row n and coordinate d. -/
def scoreAt (x : (⟨2, ![4096, 128]⟩ : Shape).Idx → EReal) (mean iv : (⟨1, ![4096]⟩ : Shape).Idx → EReal)
    (y : (⟨2, ![16384, 128]⟩ : Shape).Idx → EReal) (n : Fin 4096) (d : Fin 128) : EReal :=
  (softAvg (fun m => logit x mean iv y n m) (fun m => y (ix2 m d)) - x (ix2 n d)) * iv (ix1 n)

/-- The whole score array. -/
def score (x : (⟨2, ![4096, 128]⟩ : Shape).Idx → EReal) (mean iv : (⟨1, ![4096]⟩ : Shape).Idx → EReal)
    (y : (⟨2, ![16384, 128]⟩ : Shape).Idx → EReal) : (⟨2, ![4096, 128]⟩ : Shape).Idx → EReal :=
  fun i => scoreAt x mean iv y (i 0) (i 1)

theorem score_ix2 (x : (⟨2, ![4096, 128]⟩ : Shape).Idx → EReal) (mean iv : (⟨1, ![4096]⟩ : Shape).Idx → EReal)
    (y : (⟨2, ![16384, 128]⟩ : Shape).Idx → EReal) (n : Fin 4096) (d : Fin 128) :
    score x mean iv y (ix2 n d) = scoreAt x mean iv y n d := rfl

end Cert.Gmm

end
-- ==== Proof.KernelBlocks.lean ====
/-
  What a grid point's blocks hold.

  Point t of the 32 stages rows 128·t … 128·t + 127 of the query array and of the three scale columns, and the whole of
  the two key tables and of the norm row. The arrays those blocks are cut from are the arguments or what the host
  wrote before the call: the rounded key table (the key table itself, a change of format being the identity), the
  rounding remainder y − y, the columns iv · mean, (1/2 · iv) · (mean · mean) and iv, each a vector recast as a
  column, and the row of squared norms 0 + Σ_k y(j, k)², a vector recast as a row.
-/
import proofs.«171520_j7112465842631_2_alg».proof.Proof.Gen.KernelIdeal.Value
import proofs.«171520_j7112465842631_2_alg».proof.Proof.Gen.ReferenceIdeal.Read
import proofs.«171520_j7112465842631_2_alg».proof.Proof.LibKeepdims
import proofs.«171520_j7112465842631_2_alg».proof.Proof.LibBroadcastInDim
import proofs.«171520_j7112465842631_2_alg».proof.Proof.Spec
import Idealize.ShloMosaic.Lib.StableHlo.Run
import Idealize.ShloMosaic.Lib.ValueLayout
import Idealize.ShloMosaic.Lib.Pipeline.Value

noncomputable section

open scoped BigOperators

namespace Cert.Gmm.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The queries, the times and the keys as the memory holds them at launch. -/
abbrev xOf (c : Dev nD) : S4096x128.Idx → EReal := m ((c : Thread nD τ).loc main_arg0)
abbrev tOf (c : Dev nD) : S4096.Idx → EReal := m ((c : Thread nD τ).loc main_arg1)
abbrev yOf (c : Dev nD) : S16384x128.Idx → EReal := m ((c : Thread nD τ).loc main_arg2)
/-- The per-row mean and inverse variance, as functions of the times. -/
abbrev meanOf (c : Dev nD) : S4096.Idx → EReal := Cert.ReferenceIdeal.Read.val_main_v10 (F := Ideal) (tOf m c)
abbrev ivOf (c : Dev nD) : S4096.Idx → EReal := Cert.ReferenceIdeal.Read.val_main_v21 (F := Ideal) (tOf m c)

/-! ## The arrays the host wrote before the call -/

theorem V_hi (c : Dev nD) : (V m c main_v33 : S16384x128.Idx → EReal) = yOf m c := by
  dsimp only [Gen.V, Gen.hostOps0]
  after_results_simp
  rfl

theorem V_lo (c : Dev nD) : (V m c main_v36 : S16384x128.Idx → EReal) = fun i => yOf m c i - yOf m c i := by
  dsimp only [Gen.V, Gen.hostOps0]
  after_results_simp
  rfl

theorem V_a (c : Dev nD) : (V m c main_v23 : S4096x1.Idx → EReal)
    = shapeCast S4096x1 (mulf (ivOf m c) (meanOf m c) : FVec Ideal S4096 .f32) shapeCasts_S4096_S4096x1 := by
  dsimp only [Gen.V, Gen.hostOps0]
  after_results_simp
  rfl

theorem V_b (c : Dev nD) : (V m c main_v28 : S4096x1.Idx → EReal)
    = shapeCast S4096x1 (mulf (mulf (broadcastInDim S4096 ![] bcast_S_S4096 (constant (F := Ideal) S_ .f32 0x3F000000#32)) (ivOf m c))
        (mulf (meanOf m c) (meanOf m c)) : FVec Ideal S4096 .f32) shapeCasts_S4096_S4096x1 := by
  dsimp only [Gen.V, Gen.hostOps0]
  after_results_simp
  rfl

theorem V_s (c : Dev nD) : (V m c main_v29 : S4096x1.Idx → EReal)
    = shapeCast S4096x1 (ivOf m c : FVec Ideal S4096 .f32) shapeCasts_S4096_S4096x1 := by
  dsimp only [Gen.V, Gen.hostOps0]
  after_results_simp
  rfl

theorem V_w (c : Dev nD) : (V m c main_v32 : S1x16384.Idx → EReal)
    = shapeCast S1x16384 (Cert.ReferenceIdeal.Read.val_main_v26 (F := Ideal) (yOf m c) : FVec Ideal S16384 .f32) shapeCasts_S16384_S1x16384 := by
  dsimp only [Gen.V, Gen.hostOps0]
  after_results_simp
  rfl

/-! ## Those arrays at an index -/

theorem V_a_apply (c : Dev nD) (n : Fin 4096) : (V m c main_v23 : S4096x1.Idx → EReal) (ix2 n (0 : Fin 1)) = ivOf m c (ix1 n) * meanOf m c (ix1 n) := by
  rw [V_a]
  exact shapeCast_a_a1_apply _ _ n 0

theorem V_b_apply (c : Dev nD) (n : Fin 4096) : (V m c main_v28 : S4096x1.Idx → EReal) (ix2 n (0 : Fin 1))
    = (Cert.Gmm.half * ivOf m c (ix1 n)) * (meanOf m c (ix1 n) * meanOf m c (ix1 n)) := by
  rw [V_b]
  refine (shapeCast_a_a1_apply _ _ n 0).trans ?_
  show broadcastInDim S4096 ![] bcast_S_S4096 (constant (F := Ideal) S_ .f32 0x3F000000#32) (ix1 n) * _ * _ = _
  rw [broadcastInDim_scalar_apply]
  rfl

theorem V_s_apply (c : Dev nD) (n : Fin 4096) : (V m c main_v29 : S4096x1.Idx → EReal) (ix2 n (0 : Fin 1)) = ivOf m c (ix1 n) := by
  rw [V_s]
  exact shapeCast_a_a1_apply _ _ n 0

theorem V_w_apply (c : Dev nD) (j : Fin 16384) : (V m c main_v32 : S1x16384.Idx → EReal) (ix2 (0 : Fin 1) j)
    = Ideal.ofBits .f32 0x00000000#32 + ∑ k : Fin 128, yOf m c (ix2 j k) * yOf m c (ix2 j k) := by
  rw [V_w]
  refine (shapeCast_a_1a_apply _ _ 0 j).trans ?_
  rw [Cert.ReferenceIdeal.Read.val_main_v26_apply]
  refine congrArg₂ (· + ·) rfl (Finset.sum_congr rfl fun k _ => ?_)
  have e : Cert.ReferenceIdeal.Read.idx_main_v26 (ix1 j) k = ix2 j k :=
    funext fun a => Fin.ext (by match a with | ⟨0, _⟩ => rfl | ⟨1, _⟩ => rfl)
  rw [e]
  rfl

/-! ## The blocks of a point -/

/-- The printed index maps over the 32 points: the row-tiled windows move with the point, the resident ones stay. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

theorem iblk0_apply (c : Dev nD) (t : Fin cfg0.N) (p k : Fin 128) (n : Fin 4096) (hn : n.val = 128 * t.val + p.val) :
    (iblk m c 0 t : Vec Ideal S128x128 .f32) (ix2 p k) = xOf m c (ix2 n k) := by
  obtain ⟨⟨e0, e1⟩, -⟩ := idx_facts t
  unfold iblk
  rw [View.read_apply]
  show V m c main_arg0 _ = _
  rw [V_main_arg0]
  congr 1
  funext a
  apply Fin.ext
  match a with
  | ⟨0, _⟩ => show win0_0.index t 0 * 128 + 1 * p.val = n.val; rw [e0, hn]; omega
  | ⟨1, _⟩ => show win0_0.index t 1 * 128 + 1 * k.val = k.val; rw [e1]; omega

theorem iblk1_apply (c : Dev nD) (t : Fin cfg0.N) (j : Fin 16384) (k : Fin 128) :
    (iblk m c 1 t : Vec Ideal S16384x128 .bf16) (ix2 j k) = yOf m c (ix2 j k) := by
  obtain ⟨-, ⟨e0, e1⟩, -⟩ := idx_facts t
  unfold iblk
  rw [View.read_apply]
  show (V m c main_v33 : S16384x128.Idx → EReal) _ = _
  rw [V_hi]
  congr 1
  funext a
  apply Fin.ext
  match a with
  | ⟨0, _⟩ => show win0_1.index t 0 * 16384 + 1 * j.val = j.val; rw [e0]; omega
  | ⟨1, _⟩ => show win0_1.index t 1 * 128 + 1 * k.val = k.val; rw [e1]; omega

theorem iblk2_apply (c : Dev nD) (t : Fin cfg0.N) (j : Fin 16384) (k : Fin 128) :
    (iblk m c 2 t : Vec Ideal S16384x128 .bf16) (ix2 j k) = yOf m c (ix2 j k) - yOf m c (ix2 j k) := by
  obtain ⟨-, -, ⟨e0, e1⟩, -⟩ := idx_facts t
  unfold iblk
  rw [View.read_apply]
  show (V m c main_v36 : S16384x128.Idx → EReal) _ = _
  rw [V_lo]
  have e : ((cfg0.win 2).blk t).view.emb (ix2 j k) = ix2 j k := by
    funext a
    apply Fin.ext
    match a with
    | ⟨0, _⟩ => show win0_2.index t 0 * 16384 + 1 * j.val = j.val; rw [e0]; omega
    | ⟨1, _⟩ => show win0_2.index t 1 * 128 + 1 * k.val = k.val; rw [e1]; omega
  rw [e]

theorem iblk3_apply (c : Dev nD) (t : Fin cfg0.N) (p : Fin 128) (n : Fin 4096) (hn : n.val = 128 * t.val + p.val) :
    (iblk m c 3 t : Vec Ideal S128x1 .f32) (ix2 p (0 : Fin 1)) = ivOf m c (ix1 n) * meanOf m c (ix1 n) := by
  obtain ⟨-, -, -, ⟨e0, e1⟩, -⟩ := idx_facts t
  unfold iblk
  rw [View.read_apply, ← V_a_apply m c n]
  show (V m c main_v23 : S4096x1.Idx → EReal) _ = _
  congr 1
  funext a
  apply Fin.ext
  match a with
  | ⟨0, _⟩ => show win0_3.index t 0 * 128 + 1 * p.val = n.val; rw [e0, hn]; omega
  | ⟨1, _⟩ => show win0_3.index t 1 * 1 + 1 * 0 = 0; rw [e1]

theorem iblk4_apply (c : Dev nD) (t : Fin cfg0.N) (p : Fin 128) (n : Fin 4096) (hn : n.val = 128 * t.val + p.val) :
    (iblk m c 4 t : Vec Ideal S128x1 .f32) (ix2 p (0 : Fin 1))
      = (Cert.Gmm.half * ivOf m c (ix1 n)) * (meanOf m c (ix1 n) * meanOf m c (ix1 n)) := by
  obtain ⟨-, -, -, -, ⟨e0, e1⟩, -⟩ := idx_facts t
  unfold iblk
  rw [View.read_apply, ← V_b_apply m c n]
  show (V m c main_v28 : S4096x1.Idx → EReal) _ = _
  congr 1
  funext a
  apply Fin.ext
  match a with
  | ⟨0, _⟩ => show win0_4.index t 0 * 128 + 1 * p.val = n.val; rw [e0, hn]; omega
  | ⟨1, _⟩ => show win0_4.index t 1 * 1 + 1 * 0 = 0; rw [e1]

theorem iblk5_apply (c : Dev nD) (t : Fin cfg0.N) (p : Fin 128) (n : Fin 4096) (hn : n.val = 128 * t.val + p.val) :
    (iblk m c 5 t : Vec Ideal S128x1 .f32) (ix2 p (0 : Fin 1)) = ivOf m c (ix1 n) := by
  obtain ⟨-, -, -, -, -, ⟨e0, e1⟩, -⟩ := idx_facts t
  unfold iblk
  rw [View.read_apply, ← V_s_apply m c n]
  show (V m c main_v29 : S4096x1.Idx → EReal) _ = _
  congr 1
  funext a
  apply Fin.ext
  match a with
  | ⟨0, _⟩ => show win0_5.index t 0 * 128 + 1 * p.val = n.val; rw [e0, hn]; omega
  | ⟨1, _⟩ => show win0_5.index t 1 * 1 + 1 * 0 = 0; rw [e1]

theorem iblk6_apply (c : Dev nD) (t : Fin cfg0.N) (j : Fin 16384) :
    (iblk m c 6 t : Vec Ideal S1x16384 .f32) (ix2 (0 : Fin 1) j)
      = Ideal.ofBits .f32 0x00000000#32 + ∑ k : Fin 128, yOf m c (ix2 j k) * yOf m c (ix2 j k) := by
  obtain ⟨-, -, -, -, -, -, ⟨e0, e1⟩, -⟩ := idx_facts t
  unfold iblk
  rw [View.read_apply, ← V_w_apply m c j]
  show (V m c main_v32 : S1x16384.Idx → EReal) _ = _
  congr 1
  funext a
  apply Fin.ext
  match a with
  | ⟨0, _⟩ => show win0_6.index t 0 * 1 + 1 * 0 = 0; rw [e0]
  | ⟨1, _⟩ => show win0_6.index t 1 * 16384 + 1 * j.val = j.val; rw [e1]; omega

end Cert.Gmm.Kernel

end
-- ==== Proof.LibDotRows.lean ====
/-
  A matrix product against the rows of the right operand, read at a row and a column. For dimension numbers that
  contract the second axis of BOTH operands and batch nothing (an M x K array times the transpose of an N x K
  array) — stated by the four coordinate facts of the operand indices — the contraction at (r, c) is the finite sum
  over k of left (r, k) * right (c, k). A matrix-unit product into the zero accumulator is that sum at the extended
  reals, whatever formats the operands were rounded to on the way.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.ValueIdx

open Idealize.ShloMosaic

/-- The facts that say a dot's dimension numbers are those of an M x K array times the transpose of an N x K one. -/
structure RowsDot {M K N : ℕ} (d : DotDims (⟨2, ![M, K]⟩ : Shape) (⟨2, ![N, K]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

/-- The contraction against the right operand's rows at (r, c), re-indexed by the inner position k. -/
theorem contraction_rows_ix2 {M K N : ℕ} {d : DotDims (⟨2, ![M, K]⟩ : Shape) (⟨2, ![N, K]⟩ : Shape) (⟨2, ![M, N]⟩ : Shape)}
    (hd : RowsDot d) (lhs : (⟨2, ![M, K]⟩ : Shape).Idx → EReal) (rhs : (⟨2, ![N, K]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 c k) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 c k := funext fun a => Fin.ext (by
    match a with
    | ⟨0, _⟩ => exact hd.r0 _ _
    | ⟨1, _⟩ => exact (hd.r1 _ _).trans hk)
  rw [el, er]

/-- A matrix-unit product of an M x K array with the rows of an N x K array into zeros, at (r, c): the sum over the
    K inner positions. -/
theorem matmul_zero_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 c k) : EReal) := by
  rw [Ideal.matmul_constant_zero_apply]
  exact contraction_rows_ix2 hd lhs rhs r c

/-- A dense layer against the rows of the weights: the product into zeros plus a bias vector recast as one row and
    broadcast down the rows, at (p, q), is the sum over the inner position plus the bias at q. -/
theorem dense_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (x : FVec Ideal (⟨2, ![M, K]⟩ : Shape) φ₁) (w : FVec Ideal (⟨2, ![N, K]⟩ : Shape) φ₂) (b : FVec Ideal (⟨1, ![N]⟩ : Shape) .f32)
    (h1 : (⟨1, ![N]⟩ : Shape).ShapeCasts ⟨2, ![1, N]⟩) (h2 : (⟨2, ![1, N]⟩ : Shape).Broadcasts ⟨2, ![M, N]⟩) (p : Fin M) (q : Fin N) :
    addf (matmul d prec x w (constant (⟨2, ![M, N]⟩ : Shape) .f32 0x00000000#32))
        (broadcastTo (⟨2, ![M, N]⟩ : Shape) (shapeCast (⟨2, ![1, N]⟩ : Shape) b h1) h2) (ix2 p q)
      = (∑ k : Fin K, (x (ix2 p k) : EReal) * (w (ix2 q k) : EReal)) + (b (ix1 q) : EReal) := by
  show FloatOps.matmul d prec x w (constant (⟨2, ![M, N]⟩ : Shape) .f32 0x00000000#32) (ix2 p q)
      + broadcastTo (⟨2, ![M, N]⟩ : Shape) (shapeCast (⟨2, ![1, N]⟩ : Shape) b h1) h2 (ix2 p q) = _
  rw [broadcastTo_1b_ab_apply, shapeCast_a_1a_apply, matmul_zero_rows_ix2 hd]

end Idealize.ShloMosaic.ValueIdx

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.KernelPayload.lean ====
/-
  One block of the kernel's work, read entry by entry.

  A grid point holds 128 query rows. From the rows' block X, the whole key table (twice: its rounded copy Y and the
  remainder R left by the rounding), the three per-row scale columns a, b, s and the row w of squared key norms, the
  body forms
      logits(p, m) = a(p) · ((X Yᵀ + X Rᵀ) + (X − X) Yᵀ)(p, m) − b(p) · w(m),
  subtracts each row's maximum, exponentiates, and divides the weighted sum of the keys by the sum of the weights;
  a comparison of the quotient with itself (never true on the extended reals) guards a replacement by zero; the
  result is (quotient − X) · s. The matrix products are finite sums over the contracted axis.
-/
import proofs.«171520_j7112465842631_2_alg».proof.Proof.Gen.KernelIdeal.Value
import proofs.«171520_j7112465842631_2_alg».proof.Proof.LibDotRows
import proofs.«171520_j7112465842631_2_alg».proof.Proof.LibDotIx2
import proofs.«171520_j7112465842631_2_alg».proof.Proof.LibRowReduce
import proofs.«171520_j7112465842631_2_alg».proof.Proof.LibKeepdims
import Idealize.ShloMosaic.Lib.ValueLayout
import Idealize.ShloMosaic.Lib.Pipeline.Value
import Idealize.ShloMosaic.PureOps.Ideal.Laws

noncomputable section

open scoped BigOperators

namespace Cert.Gmm.Kernel

open Cert.KernelIdeal Cert.KernelIdeal.Gen Idealize.ShloMosaic Idealize.ShloMosaic.ValueIdx

/-- The first three products contract the second axis of both operands: queries against the rows of the key table. -/
theorem rowsDot : RowsDot (M := 128) (K := 128) (N := 16384) dot_S128x128_S16384x128_S128x16384_1_1_0_0_n_n where
  rank := rfl
  size := rfl
  l0 := fun j q => by
    unfold DotDims.lhsIdx
    rw [dif_neg (show ¬(0 : Fin S128x128.rank) ∈ dot_S128x128_S16384x128_S128x16384_1_1_0_0_n_n.lhsBatch by decide), dif_pos (show (0 : Fin S128x128.rank) ∈ dot_S128x128_S16384x128_S128x16384_1_1_0_0_n_n.lhsNonContracting by decide)]
    rfl
  l1 := fun j q => dot_S128x128_S16384x128_S128x16384_1_1_0_0_n_n.lhsIdx_val_of_single rfl j q
  r0 := fun j q => by
    unfold DotDims.rhsIdx
    rw [dif_neg (show ¬(0 : Fin S16384x128.rank) ∈ dot_S128x128_S16384x128_S128x16384_1_1_0_0_n_n.rhsBatch by decide), dif_pos (show (0 : Fin S16384x128.rank) ∈ dot_S128x128_S16384x128_S128x16384_1_1_0_0_n_n.rhsNonContracting by decide)]
    rfl
  r1 := fun j q => dot_S128x128_S16384x128_S128x16384_1_1_0_0_n_n.rhsIdx_val_of_single rfl j q

/-- The last product is a plain one: weights (128 × 16384) times the key table (16384 × 128). -/
theorem plainDot : PlainDot (M := 128) (K := 16384) (N := 128) dot_S128x16384_S16384x128_S128x128_1_0_0_1_n_n where
  rank := rfl
  size := rfl
  l0 := fun j q => by
    unfold DotDims.lhsIdx
    rw [dif_neg (show ¬(0 : Fin S128x16384.rank) ∈ dot_S128x16384_S16384x128_S128x128_1_0_0_1_n_n.lhsBatch by decide), dif_pos (show (0 : Fin S128x16384.rank) ∈ dot_S128x16384_S16384x128_S128x128_1_0_0_1_n_n.lhsNonContracting by decide)]
    rfl
  l1 := fun j q => dot_S128x16384_S16384x128_S128x128_1_0_0_1_n_n.lhsIdx_val_of_single rfl j q
  r0 := fun j q => dot_S128x16384_S16384x128_S128x128_1_0_0_1_n_n.rhsIdx_val_of_single rfl j q
  r1 := fun j q => by
    unfold DotDims.rhsIdx
    rw [dif_neg (show ¬(1 : Fin S16384x128.rank) ∈ dot_S128x16384_S16384x128_S128x128_1_0_0_1_n_n.rhsBatch by decide), dif_pos (show (1 : Fin S16384x128.rank) ∈ dot_S128x16384_S16384x128_S128x128_1_0_0_1_n_n.rhsNonContracting by decide)]
    rfl

variable (P0 : Vec Ideal S128x128 .f32) (P1 P2 : Vec Ideal S16384x128 .bf16) (P3 P4 : Vec Ideal S128x1 .f32)
  (P5 : Vec Ideal S1x16384 .f32) (P6 : Vec Ideal S128x1 .f32)

/-- The block of logits: each row's first scale times the three products' sum, minus its second scale times the key norms. -/
def logitsBlk : FVec Ideal S128x16384 .f32 :=
  subf (mulf (broadcastTo S128x16384 (shapeCast S128x1 P3 shapeCasts_S128x1_S128x1) broadcasts_S128x1_S128x16384)
      (addf (addf (matmul dot_S128x128_S16384x128_S128x16384_1_1_0_0_n_n none (truncf .bf16 P0 bitsLt_bf16_f32) (shapeCast S16384x128 P1 shapeCasts_S16384x128_S16384x128 : FVec Ideal S16384x128 .bf16) (constant S128x16384 .f32 0x00000000#32))
                  (matmul dot_S128x128_S16384x128_S128x16384_1_1_0_0_n_n none (truncf .bf16 P0 bitsLt_bf16_f32) (shapeCast S16384x128 P2 shapeCasts_S16384x128_S16384x128 : FVec Ideal S16384x128 .bf16) (constant S128x16384 .f32 0x00000000#32)))
            (matmul dot_S128x128_S16384x128_S128x16384_1_1_0_0_n_n none (truncf .bf16 (subf P0 P0) bitsLt_bf16_f32) (shapeCast S16384x128 P1 shapeCasts_S16384x128_S16384x128 : FVec Ideal S16384x128 .bf16) (constant S128x16384 .f32 0x00000000#32))))
    (mulf (broadcastTo S128x16384 (shapeCast S128x1 P4 shapeCasts_S128x1_S128x1) broadcasts_S128x1_S128x16384)
      (broadcastTo S128x16384 (shapeCast S1x16384 P5 shapeCasts_S1x16384_S1x16384) broadcasts_S1x16384_S128x16384))

/-- The weights: the exponential of each logit minus its row's maximum. -/
def weightsBlk (L : FVec Ideal S128x16384 .f32) : FVec Ideal S128x16384 .f32 :=
  exp (subf L (broadcastTo S128x16384 (shapeCast S128x1 (multiReduction .maximumf [1] S128 L 0xFF800000#32 reduces_S128x16384_S128 (.inl rfl) rfl) shapeCasts_S128_S128x1) broadcasts_S128x1_S128x16384))

/-- The weighted sum of the keys divided by the sum of the weights. -/
def quotBlk (W : FVec Ideal S128x16384 .f32) : FVec Ideal S128x128 .f32 :=
  divf (matmul dot_S128x16384_S16384x128_S128x128_1_0_0_1_n_n none (truncf .bf16 W bitsLt_bf16_f32) (shapeCast S16384x128 P1 shapeCasts_S16384x128_S16384x128 : FVec Ideal S16384x128 .bf16) (constant S128x128 .f32 0x00000000#32))
    (broadcastTo S128x128 (shapeCast S128x1 (multiReduction .add [1] S128 W 0x00000000#32 reduces_S128x16384_S128 (.inl rfl) rfl) shapeCasts_S128_S128x1) broadcasts_S128x1_S128x128)

/-- The guard: where the quotient differs from itself, zero. -/
def guardBlk (Q : FVec Ideal S128x128 .f32) : FVec Ideal S128x128 .f32 :=
  select (cmpf .one Q Q) (broadcast S128x128 (Scalar.ofBits .f32 0x00000000#32)) Q

/-- The body's second payload is these four stages composed. -/
theorem pay2_eq : k0_pay2 P0 P1 P2 P3 P4 P5 = guardBlk (quotBlk P1 (weightsBlk (logitsBlk P0 P1 P2 P3 P4 P5))) := rfl

/-- A logit at row p and key m. -/
theorem logitsBlk_apply (p : Fin 128) (m : Fin 16384) :
    logitsBlk P0 P1 P2 P3 P4 P5 (ix2 p m)
      = P3 (ix2 p (0 : Fin 1)) * (((∑ k : Fin 128, P0 (ix2 p k) * P1 (ix2 m k)) + ∑ k : Fin 128, P0 (ix2 p k) * P2 (ix2 m k))
            + ∑ k : Fin 128, (P0 (ix2 p k) - P0 (ix2 p k)) * P1 (ix2 m k))
        - P4 (ix2 p (0 : Fin 1)) * P5 (ix2 (0 : Fin 1) m) := by
  unfold logitsBlk
  simp only [subf_apply, mulf_apply, addf_apply]
  rw [broadcastTo_a1_ab_apply, broadcastTo_a1_ab_apply, broadcastTo_1b_ab_apply, shapeCast_self, shapeCast_self, shapeCast_self, shapeCast_self, shapeCast_self]
  refine congrArg (fun z => P3 (ix2 p (0 : Fin 1)) * z - P4 (ix2 p (0 : Fin 1)) * P5 (ix2 (0 : Fin 1) m)) ?_
  refine congrArg₂ (· + ·) (congrArg₂ (· + ·) ?_ ?_) ?_
  · exact matmul_zero_rows_ix2 (φ₁ := .bf16) (φ₂ := .bf16) rowsDot none _ _ p m
  · exact matmul_zero_rows_ix2 (φ₁ := .bf16) (φ₂ := .bf16) rowsDot none _ _ p m
  · exact matmul_zero_rows_ix2 (φ₁ := .bf16) (φ₂ := .bf16) rowsDot none _ _ p m

/-- A weight at row p and key m: the exponential of the logit minus the row's maximum, a fold of max from the bottom. -/
theorem weightsBlk_apply (L : FVec Ideal S128x16384 .f32) (p : Fin 128) (m : Fin 16384) :
    weightsBlk L (ix2 p m)
      = Ideal.exp (L (ix2 p m) - (Finset.univ : Finset (Fin 16384)).fold max (Ideal.ofBits .f32 0xFF800000#32) (fun j => L (ix2 p j))) := by
  unfold weightsBlk
  refine congrArg (fun z => Ideal.exp (L (ix2 p m) - z)) ?_
  refine (broadcastTo_a1_ab_apply _ _ p m).trans ?_
  refine (shapeCast_a_a1_apply _ _ p 0).trans ?_
  exact multiReduction_max_row L _ _ _ _ p

/-- The quotient at row p and coordinate d. -/
theorem quotBlk_apply (W : FVec Ideal S128x16384 .f32) (p : Fin 128) (d : Fin 128) :
    quotBlk P1 W (ix2 p d) = Ideal.div (∑ m : Fin 16384, W (ix2 p m) * P1 (ix2 m d)) (∑ m : Fin 16384, W (ix2 p m)) := by
  unfold quotBlk
  refine (divf_apply _ _ _).trans ?_
  refine congrArg₂ Ideal.div ?_ ?_
  · rw [shapeCast_self]
    exact matmul_zero_ix2_any (φ₁ := .bf16) (φ₂ := .bf16) plainDot none _ _ p d
  · refine (broadcastTo_a1_ab_apply _ _ p d).trans ?_
    refine (shapeCast_a_a1_apply _ _ p 0).trans ?_
    exact multiReduction_add_row W _ _ _ _ p

/-- The guard never fires: an extended real equals itself. -/
theorem guardBlk_apply (Q : FVec Ideal S128x128 .f32) (i : S128x128.Idx) : guardBlk Q i = Q i := by
  unfold guardBlk
  rw [select_apply, cmpf_apply]
  have h : FloatOps.cmpf (F := Ideal) .one (Q i) (Q i) = 0#1 := by
    show Ideal.cmp .one (Q i) (Q i) = 0#1
    simp [Ideal.cmp]
  rw [h, select_zero]

end Cert.Gmm.Kernel

end
-- ==== Proof.KernelRow.lean ====
/-
  One entry of a block is one entry of the score.

  Suppose the blocks a grid point holds are what they should be: the query block is rows of x, the two key tables are
  y and y − y, the scale columns are iv · mean, (1/2 · iv) · (mean · mean) and iv at the rows, and the norm row is
  0 + Σ y². If every entry of x and y is a real number then y − y = 0 and x − x = 0, the second and third products
  vanish, 0 + w = w, and the body's result at (p, d) is literally the score at the row p stands for.
-/
import proofs.«171520_j7112465842631_2_alg».proof.Proof.Gen.KernelIdeal.Value
import proofs.«171520_j7112465842631_2_alg».proof.Proof.KernelPayload
import proofs.«171520_j7112465842631_2_alg».proof.Proof.Spec
import proofs.«171520_j7112465842631_2_alg».proof.Proof.LibRealEntries
import Idealize.ShloMosaic.PureOps.Ideal.Laws

noncomputable section

open scoped BigOperators

namespace Cert.Gmm.Kernel

open Cert.KernelIdeal Cert.KernelIdeal.Gen Idealize.ShloMosaic Idealize.ShloMosaic.ValueIdx Cert.Algebra Cert.Gmm

/-- A real number minus itself is zero (false at the infinities). -/
theorem sub_self_real {x : EReal} (h : IsReal x) : x - x = 0 := by
  obtain ⟨a, rfl⟩ := h
  rw [← EReal.coe_sub, sub_self]; rfl

/-- The pattern of minus infinity denotes the bottom element. -/
theorem ofBits_ninf : Ideal.ofBits .f32 0xFF800000#32 = ⊥ := by
  simp [Ideal.ofBits, Ideal.ieee]

theorem block_entry_eq_score
    (x : S4096x128.Idx → EReal) (mean iv : S4096.Idx → EReal) (y : S16384x128.Idx → EReal)
    (hx : ∀ i, IsReal (x i)) (hy : ∀ i, IsReal (y i))
    (P0 : Vec Ideal S128x128 .f32) (P1 P2 : Vec Ideal S16384x128 .bf16) (P3 P4 : Vec Ideal S128x1 .f32)
    (P5 : Vec Ideal S1x16384 .f32) (P6 : Vec Ideal S128x1 .f32) (n : Fin 4096) (p d : Fin 128)
    (h0 : ∀ k : Fin 128, P0 (ix2 p k) = x (ix2 n k))
    (h1 : ∀ (j : Fin 16384) (k : Fin 128), P1 (ix2 j k) = y (ix2 j k))
    (h2 : ∀ (j : Fin 16384) (k : Fin 128), P2 (ix2 j k) = y (ix2 j k) - y (ix2 j k))
    (h3 : P3 (ix2 p (0 : Fin 1)) = iv (ix1 n) * mean (ix1 n))
    (h4 : P4 (ix2 p (0 : Fin 1)) = (half * iv (ix1 n)) * (mean (ix1 n) * mean (ix1 n)))
    (h5 : ∀ j : Fin 16384, P5 (ix2 (0 : Fin 1) j) = Ideal.ofBits .f32 0x00000000#32 + ∑ k : Fin 128, y (ix2 j k) * y (ix2 j k))
    (h6 : P6 (ix2 p (0 : Fin 1)) = iv (ix1 n)) :
    Value.E7 P0 P1 P2 P3 P4 P5 P6 (ix2 p d) = scoreAt x mean iv y n d := by
  have hi0 : Value.ix7_0 (ix2 p d) = ix2 p d := funext fun a => Fin.ext (by match a with | ⟨0, _⟩ => rfl | ⟨1, _⟩ => rfl)
  have hi1 : Value.ix7_1 (ix2 p d) = ix2 p d := funext fun a => Fin.ext (by match a with | ⟨0, _⟩ => rfl | ⟨1, _⟩ => rfl)
  have hi2 : Value.ix7_2 (ix2 p d) = ix2 p (0 : Fin 1) := funext fun a => Fin.ext (by match a with | ⟨0, _⟩ => rfl | ⟨1, _⟩ => rfl)
  have sx : ∀ k : Fin 128, x (ix2 n k) - x (ix2 n k) = 0 := fun k => sub_self_real (hx _)
  have sy : ∀ (j : Fin 16384) (k : Fin 128), y (ix2 j k) - y (ix2 j k) = 0 := fun j k => sub_self_real (hy _)
  show (k0_pay2 P0 P1 P2 P3 P4 P5 (Value.ix7_0 (ix2 p d)) - P0 (Value.ix7_1 (ix2 p d))) * P6 (Value.ix7_2 (ix2 p d)) = _
  rw [hi0, hi1, hi2, pay2_eq, guardBlk_apply, quotBlk_apply]
  simp only [weightsBlk_apply, logitsBlk_apply, h0, h1, h2, h3, h4, h5, h6, sx, sy, mul_zero, zero_mul, Finset.sum_const_zero,
    add_zero, zero_add, Ideal.ofBits_zero_f32, ofBits_ninf]
  rfl

end Cert.Gmm.Kernel

end
-- ==== Proof.KernelFinal.lean ====
/-
  From blocks to the whole array.

  Point t writes back the 128 × 128 block whose entry (p, d) is the score at row 128·t + p and coordinate d: the
  blocks it reads are the rows and tables the score is defined from. The 32 blocks tile the 4096 × 128 output, row
  r lying in block r / 128, so after the run the output array is the score of the argument arrays, provided every
  entry of the queries and keys is a real number.
-/
import proofs.«171520_j7112465842631_2_alg».proof.Proof.Gen.KernelIdeal.Value
import proofs.«171520_j7112465842631_2_alg».proof.Proof.KernelBlocks
import proofs.«171520_j7112465842631_2_alg».proof.Proof.KernelRow
import proofs.«171520_j7112465842631_2_alg».proof.Proof.Spec
import proofs.«171520_j7112465842631_2_alg».proof.Proof.LibRealEntries
import Idealize.ShloMosaic.Lib.Pipeline.Value

noncomputable section

namespace Cert.Gmm.Kernel

open Cert.KernelIdeal Cert.KernelIdeal.Gen Idealize.ShloMosaic Idealize.ShloMosaic.TcCoe Idealize.SL.Sem
open Idealize.ShloMosaic.ValueIdx Cert.Algebra
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The score of the arrays the memory holds at launch. -/
abbrev scoreOf (c : Dev nD) : S4096x128.Idx → EReal := Cert.Gmm.score (xOf m c) (meanOf m c) (ivOf m c) (yOf m c)

/-- What point t writes back is block t of the score. -/
theorem flushed_eq (c : Dev nD) (hx : ∀ i, IsReal (xOf m c i)) (hy : ∀ i, IsReal (yOf m c i)) (t : Fin cfg0.N) :
    (dats m 0 c).flushed 7 t = ((cfg0.win 7).blk t).view.read (Elt Ideal) (scoreOf m c) := by
  rw [Value.flushed7]
  unfold out0_7
  simp only [View.ld_unit_zero (S := S128x128) zero_offsets, View.ld_unit_zero (S := S16384x128) zero_offsets,
    View.ld_unit_zero (S := S128x1) zero_offsets, View.ld_unit_zero (S := S1x16384) zero_offsets]
  refine funext fun (j : S128x128.Idx) => ?_
  obtain ⟨p, d, rfl⟩ : ∃ (p : Fin 128) (d : Fin 128), j = ix2 p d := ⟨j 0, j 1, eq_ix2 j⟩
  show (View.canon [⟨r0_0, k0_pay1 (iblk m c 0 t) (k0_pay2 (iblk m c 0 t) (iblk m c 1 t) (iblk m c 2 t) (iblk m c 3 t) (iblk m c 4 t) (iblk m c 6 t)) (iblk m c 5 t)⟩]
      : Vec Ideal S128x128 .f32) (ix2 p d) = scoreOf m c (((cfg0.win 7).blk t).view.emb (ix2 p d))
  refine (Value.canon7_eq (F := Ideal) (iblk m c 0 t) (iblk m c 1 t) (iblk m c 2 t) (iblk m c 3 t) (iblk m c 4 t) (iblk m c 6 t) (iblk m c 5 t) (ix2 p d)).trans ?_
  have ht : t.val < 32 := lt_of_lt_of_eq t.isLt (show cfg0.N = 32 from N_0)
  obtain ⟨-, -, -, -, -, -, -, ⟨e0, e1⟩⟩ := idx_facts t
  have he : ((cfg0.win 7).blk t).view.emb (ix2 p d) = ix2 (⟨128 * t.val + p.val, by have := p.isLt; omega⟩ : Fin 4096) d := by
    funext a
    apply Fin.ext
    match a with
    | ⟨0, _⟩ => show win0_7.index t 0 * 128 + 1 * p.val = 128 * t.val + p.val; rw [e0]; omega
    | ⟨1, _⟩ => show win0_7.index t 1 * 128 + 1 * d.val = d.val; rw [e1]; omega
  rw [he]
  exact block_entry_eq_score (xOf m c) (meanOf m c) (ivOf m c) (yOf m c) hx hy
    (iblk m c 0 t) (iblk m c 1 t) (iblk m c 2 t) (iblk m c 3 t) (iblk m c 4 t) (iblk m c 6 t) (iblk m c 5 t)
    ⟨128 * t.val + p.val, by have := p.isLt; omega⟩ p d
    (fun k => iblk0_apply m c t p k _ rfl) (fun j k => iblk1_apply m c t j k) (fun j k => iblk2_apply m c t j k)
    (iblk3_apply m c t p _ rfl) (iblk4_apply m c t p _ rfl) (fun j => iblk6_apply m c t j) (iblk5_apply m c t p _ rfl)

/-- An array index lies in point t's block exactly when each coordinate lies in the block's range on its axis. -/
theorem mem_blk (t : Fin cfg0.N) (i : S4096x128.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v37).slice (win0_7.rect t)).set ↔ _
  rw [View.set_slice_whole, Rect.mem_set_unit]
  exact Iff.rfl

/-- Row r of the output lies in the block of point r / 128. -/
theorem cover (i : S4096x128.Idx) : ∃ t : Fin cfg0.N, (cfg0.win 7).flush t = true ∧ i ∈ ((cfg0.win 7).blk t).view.set := by
  have hi0 : (i 0).val < 4096 := (i 0).isLt
  have hi1 : (i 1).val < 128 := (i 1).isLt
  let t : Fin cfg0.N := ⟨(i 0).val / 128, by rw [show cfg0.N = 32 from N_0]; omega⟩
  obtain ⟨-, -, -, -, -, -, -, ⟨e0, e1⟩⟩ := idx_facts t
  refine ⟨t, flush0_7 t, ?_⟩
  rw [mem_blk]
  intro a
  match a with
  | ⟨0, _⟩ =>
    show win0_7.index t (0 : Fin 2) * 128 ≤ (i 0).val ∧ (i 0).val < win0_7.index t (0 : Fin 2) * 128 + 128
    rw [e0]
    show (i 0).val / 128 * 128 ≤ (i 0).val ∧ (i 0).val < (i 0).val / 128 * 128 + 128
    omega
  | ⟨1, _⟩ =>
    show win0_7.index t (1 : Fin 2) * 128 ≤ (i 1).val ∧ (i 1).val < win0_7.index t (1 : Fin 2) * 128 + 128
    rw [e1]
    omega

/-- After the run the output array is the score of the arrays at launch. -/
theorem final (c : Dev nD) (hx : ∀ i, IsReal (xOf m c i)) (hy : ∀ i, IsReal (yOf m c i)) :
    (dats m 0 c).arrAt 7 cfg0.N = scoreOf m c :=
  (dats m 0 c).arrAt_eq_of_cover 7 (scoreOf m c) (fun t _ => flushed_eq m c hx hy t) cover

/-- The kernel's run with its result named: the score of the arguments, the arguments unchanged. -/
theorem run (hx : ∀ c i, IsReal (xOf m c i)) (hy : ∀ c i, IsReal (yOf m c i)) :
    θ_run defs (onTc (τ := τ) (main (F := Ideal))) ⟨m, fun _ => 0, ρ⟩ fun r => ∀ c : Dev nD,
      r.2.mem ((c : Thread nD τ).loc main_v37) = scoreOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hx c) (hy c)), (h c).2⟩) (Value.run_blocks m ρ)

end Cert.Gmm.Kernel

end
-- ==== Proof.RefAlgebra.lean ====
/-
  The algebra behind the reference's softmax-weighted average, over extended reals that are real numbers.

  Three facts. (1) The log-density entry the reference forms,
      (-1/2 * ((0 + X2) - (2 * mu) * s + (mu * mu) * (0 + w))) * v,
  is the row constant -1/2 * X2 * v plus the logit (v * mu) * s - ((1/2 * v) * (mu * mu)) * w.
  (2) A maximum folded from -infinity over entries all shifted by one real constant c is c plus the maximum of the
  entries, and over a nonempty family of reals it is a real. (3) Hence the weights exp (L m - max L) do not see the
  shift, their sum is a positive real, and dividing each weight by the sum before averaging is dividing the weighted
  sum by it. None of this survives an infinite entry, so every statement carries that its entries are real.
-/
import proofs.«171520_j7112465842631_2_alg».proof.Proof.Spec
import proofs.«171520_j7112465842631_2_alg».proof.Proof.LibRealEntries
import Idealize.ShloMosaic.PureOps.Ideal.Laws

noncomputable section

open scoped BigOperators

namespace Cert.Gmm.Ref

open Idealize.ShloMosaic Cert.Algebra

/-! ## The constants the reference spells -/

/-- The pattern of -0.5 denotes the real -1/2. -/
theorem ofBits_neg_half : Ideal.ofBits .f32 0xBF000000#32 = (((-1/2 : ℝ)) : EReal) := by
  simp [Ideal.ofBits, Ideal.ieee, -EReal.coe_mul]; norm_num
/-- The pattern of 2.0 denotes the real 2. -/
theorem ofBits_two : Ideal.ofBits .f32 0x40000000#32 = ((2 : ℝ) : EReal) := by
  simp [Ideal.ofBits, Ideal.ieee, -EReal.coe_mul]; norm_num
/-- The pattern of 0.5 denotes the real 1/2. -/
theorem ofBits_half : Ideal.ofBits .f32 0x3F000000#32 = ((1/2 : ℝ) : EReal) := by
  simp [Ideal.ofBits, Ideal.ieee, -EReal.coe_mul]; norm_num
/-- The pattern of -infinity denotes the bottom element. -/
theorem ofBits_neg_inf : Ideal.ofBits .f32 0xFF800000#32 = ⊥ := by
  simp [Ideal.ofBits, Ideal.ieee]

/-! ## The log-density entry is a row constant plus the logit -/

theorem logit_shift {X2 s w μ v : EReal} (hX : IsReal X2) (hs : IsReal s) (hw : IsReal w) (hμ : IsReal μ) (hv : IsReal v) :
    (Ideal.ofBits .f32 0xBF000000#32 * (((Ideal.ofBits .f32 0x00000000#32 + X2) - (Ideal.ofBits .f32 0x40000000#32 * μ) * s)
        + (μ * μ) * (Ideal.ofBits .f32 0x00000000#32 + w))) * v
      = (((-1/2 : ℝ) : EReal) * X2 * v) + ((v * μ) * s - ((half * v) * (μ * μ)) * w) := by
  obtain ⟨a, rfl⟩ := hX; obtain ⟨b, rfl⟩ := hs; obtain ⟨c, rfl⟩ := hw; obtain ⟨d, rfl⟩ := hμ; obtain ⟨e, rfl⟩ := hv
  rw [half, ofBits_neg_half, ofBits_two, ofBits_half, Ideal.ofBits_zero_f32, zero_add, zero_add]
  simp only [← EReal.coe_mul, ← EReal.coe_add, ← EReal.coe_sub]
  refine congrArg _ ?_
  ring

/-- The row constant and the logit are real when their ingredients are. -/
theorem isReal_rowConst {X2 v : EReal} (hX : IsReal X2) (hv : IsReal v) : IsReal ((((-1/2 : ℝ)) : EReal) * X2 * v) :=
  ((isReal_coe _).mul hX).mul hv

theorem isReal_logit {s w μ v : EReal} (hs : IsReal s) (hw : IsReal w) (hμ : IsReal μ) (hv : IsReal v) :
    IsReal ((v * μ) * s - ((half * v) * (μ * μ)) * w) := by
  have hh : IsReal half := by rw [half, ofBits_half]; exact isReal_coe _
  exact ((hv.mul hμ).mul hs).sub (((hh.mul hv).mul (hμ.mul hμ)).mul hw)

/-! ## A maximum folded from the bottom element -/

/-- Folding max from the bottom over entries shifted by a real constant c is c plus the fold over the entries. -/
theorem fold_max_shift {ι : Type} (s : Finset ι) (c : EReal) (hc : IsReal c) (f : ι → EReal) :
    s.fold max ⊥ (fun i => c + f i) = c + s.fold max ⊥ f := by
  classical
  obtain ⟨r, rfl⟩ := hc
  induction s using Finset.induction_on with
  | empty => rw [Finset.fold_empty, Finset.fold_empty, EReal.add_bot]
  | insert a s ha ih =>
    rw [Finset.fold_insert ha, Finset.fold_insert ha, ih]
    have hmono : Monotone ((r : EReal) + ·) := fun x y h => add_le_add le_rfl h
    exact hmono.map_max.symm

/-- A fold of max from the bottom over a nonempty family of reals is a real. -/
theorem isReal_fold_max {ι : Type} (s : Finset ι) (hs : s.Nonempty) (f : ι → EReal) (hf : ∀ i, IsReal (f i)) :
    IsReal (s.fold max ⊥ f) := by
  classical
  have h : ∀ t : Finset ι, t.fold max ⊥ f = ⊥ ∨ IsReal (t.fold max ⊥ f) := by
    intro t
    induction t using Finset.induction_on with
    | empty => left; exact Finset.fold_empty
    | insert a t ha ih =>
      right
      rw [Finset.fold_insert ha]
      rcases ih with h | h
      · rw [h, max_eq_left bot_le]; exact hf a
      · exact (hf a).max h
  rcases h s with h | h
  · obtain ⟨a, ha⟩ := hs
    have hle : f a ≤ s.fold max ⊥ f := (Finset.le_fold_max (f a)).mpr (Or.inr ⟨a, ha, le_rfl⟩)
    obtain ⟨r, hr⟩ := hf a
    rw [h, hr] at hle
    exact absurd hle (not_le.mpr (EReal.bot_lt_coe r))
  · exact h

/-! ## The softmax-weighted average does not see a row constant -/

/-- The reference's average: weights exp (Lr m - max Lr) each divided by their sum, then summed against the values. With
    Lr = c + Lc entrywise for a real c it is the weighted average under Lc. -/
theorem softmax_shift {M : ℕ} (hM : 0 < M) (Lr Lc y : Fin M → EReal) (c : EReal) (hc : IsReal c)
    (hL : ∀ m, Lr m = c + Lc m) (hLc : ∀ m, IsReal (Lc m)) (hy : ∀ m, IsReal (y m)) :
    (∑ m, Ideal.div (Ideal.exp (Lr m - max ⊥ ((Finset.univ : Finset (Fin M)).fold max ⊥ Lr)))
        (0 + ∑ m', Ideal.exp (Lr m' - max ⊥ ((Finset.univ : Finset (Fin M)).fold max ⊥ Lr))) * y m)
      = softAvg Lc y := by
  have hne : (Finset.univ : Finset (Fin M)).Nonempty := ⟨⟨0, hM⟩, Finset.mem_univ _⟩
  have hLr : Lr = fun m => c + Lc m := funext hL
  subst hLr
  rw [max_eq_right bot_le, fold_max_shift _ c hc Lc]
  obtain ⟨mk, hmk⟩ := isReal_fold_max _ hne Lc hLc
  obtain ⟨c', rfl⟩ := hc
  choose l hl using hLc
  choose yy hyy using hy
  have hLcf : Lc = fun m => (l m : EReal) := funext hl
  have hyf : y = fun m => (yy m : EReal) := funext hyy
  subst hLcf hyf
  unfold softAvg
  rw [hmk]
  have he : ∀ m, Ideal.exp ((c' : EReal) + (l m : EReal) - ((c' : EReal) + (mk : EReal))) = ((Real.exp (l m - mk) : ℝ) : EReal) := by
    intro m
    rw [← EReal.coe_add, ← EReal.coe_add, ← EReal.coe_sub, Ideal.exp_coe, add_sub_add_left_eq_sub]
  have he' : ∀ m, Ideal.exp ((l m : EReal) - (mk : EReal)) = ((Real.exp (l m - mk) : ℝ) : EReal) := by
    intro m
    rw [← EReal.coe_sub, Ideal.exp_coe]
  have hS : (0 : ℝ) < ∑ m, Real.exp (l m - mk) := Finset.sum_pos (fun m _ => Real.exp_pos _) hne
  simp only [he, he', zero_add, ← coe_sum, Ideal.div_coe hS.ne', ← EReal.coe_mul]
  refine congrArg _ ?_
  rw [Finset.sum_mul]
  exact Finset.sum_congr rfl fun m _ => by ring

end Cert.Gmm.Ref

end
-- ==== Proof.RefScore.lean ====
/-
  The reference program, read one stage at a time at a row n, a key m and a coordinate d, is the score of the
  specification.

  Reading. With mean and iv the two per-row arrays the program derives from its second argument, the program forms
  the inner products s(n, m) = sum over d of x(n, d) * y(m, d), the squared norms X2(n) and w(m), the log-density entry
      Lr(n, m) = (-1/2 * ((0 + X2(n)) - (2 * mean n) * s(n, m) + (mean n * mean n) * (0 + w(m)))) * iv n,
  its row maximum from -infinity, the weights exp (Lr(n, m) - max), their row sum, the normalised weights, their
  product with the keys, a select that replaces a value different from itself by zero, and finally subtracts the
  query and scales by iv n.

  Algebra. For real entries Lr(n, m) is the row constant -1/2 * X2(n) * iv n plus the specification's logit, so the
  softmax-weighted average is the specification's; no extended real differs from itself, so the select keeps it.
-/
import proofs.«171520_j7112465842631_2_alg».proof.Proof.Gen.ReferenceIdeal.Read
import proofs.«171520_j7112465842631_2_alg».proof.Proof.Spec
import proofs.«171520_j7112465842631_2_alg».proof.Proof.LibRealEntries
import proofs.«171520_j7112465842631_2_alg».proof.Proof.LibRowReduce
import proofs.«171520_j7112465842631_2_alg».proof.Proof.RefAlgebra
import Idealize.ShloMosaic.Lib.ValueIdx
import Idealize.ShloMosaic.PureOps.Ideal.Laws

noncomputable section

open scoped BigOperators

namespace Cert.Gmm.Ref

open Cert.ReferenceIdeal Cert.ReferenceIdeal.Gen Cert.ReferenceIdeal.Read Idealize.ShloMosaic Idealize.ShloMosaic.ValueIdx Cert.Algebra

/-! ## The stages at coordinates -/

/-- The inner products: entry (n, m) of the first matrix product. -/
theorem v22_at (x0 : (⟨S4096x128, .f32⟩ : BufTy).Contents (Elt Ideal)) (x2 : (⟨S16384x128, .f32⟩ : BufTy).Contents (Elt Ideal))
    (n : Fin 4096) (m : Fin 16384) :
    val_main_v22 (F := Ideal) x0 x2 (ix2 n m) = ∑ d : Fin 128, x0 (ix2 n d) * x2 (ix2 m d) := by
  rw [val_main_v22_apply]
  refine Finset.sum_congr rfl fun k _ => ?_
  have hl : lidx_main_v22 (ix2 n m) k = ix2 n k :=
    funext fun a => Fin.ext (by match a with | ⟨0, _⟩ => rfl | ⟨1, _⟩ => rfl)
  have hr : ridx_main_v22 (ix2 n m) k = ix2 m k :=
    funext fun a => Fin.ext (by match a with | ⟨0, _⟩ => rfl | ⟨1, _⟩ => rfl)
  rw [hl, hr]

/-- The squared norm of query row n, after the sum's initial value. -/
theorem v24_at (x0 : (⟨S4096x128, .f32⟩ : BufTy).Contents (Elt Ideal)) (n : Fin 4096) :
    val_main_v24 (F := Ideal) x0 (ix1 n) = Ideal.ofBits .f32 0x00000000#32 + ∑ d : Fin 128, x0 (ix2 n d) * x0 (ix2 n d) := by
  rw [val_main_v24_apply, val_main_cst_7_apply]
  refine congrArg (_ + ·) (Finset.sum_congr rfl fun k _ => ?_)
  have hi : idx_main_v24 (ix1 n) k = ix2 n k :=
    funext fun a => Fin.ext (by match a with | ⟨0, _⟩ => rfl | ⟨1, _⟩ => rfl)
  rw [val_main_v23_apply, hi]
  rfl

/-- The squared norm of key m, after the sum's initial value. -/
theorem v26_at (x2 : (⟨S16384x128, .f32⟩ : BufTy).Contents (Elt Ideal)) (m : Fin 16384) :
    val_main_v26 (F := Ideal) x2 (ix1 m) = Ideal.ofBits .f32 0x00000000#32 + ∑ d : Fin 128, x2 (ix2 m d) * x2 (ix2 m d) := by
  rw [val_main_v26_apply, val_main_cst_8_apply]
  refine congrArg (_ + ·) (Finset.sum_congr rfl fun k _ => ?_)
  have hi : idx_main_v26 (ix1 m) k = ix2 m k :=
    funext fun a => Fin.ext (by match a with | ⟨0, _⟩ => rfl | ⟨1, _⟩ => rfl)
  rw [val_main_v25_apply, hi]
  rfl

/-- The log-density entry (n, m), over the two per-row arrays kept as they are. -/
theorem v46_at (x0 : (⟨S4096x128, .f32⟩ : BufTy).Contents (Elt Ideal)) (x1 : (⟨S4096, .f32⟩ : BufTy).Contents (Elt Ideal))
    (x2 : (⟨S16384x128, .f32⟩ : BufTy).Contents (Elt Ideal)) (n : Fin 4096) (m : Fin 16384) :
    val_main_v46 (F := Ideal) x0 x1 x2 (ix2 n m)
      = (Ideal.ofBits .f32 0xBF000000#32
          * (((Ideal.ofBits .f32 0x00000000#32 + ∑ d : Fin 128, x0 (ix2 n d) * x0 (ix2 n d))
                - (Ideal.ofBits .f32 0x40000000#32 * val_main_v10 (F := Ideal) x1 (ix1 n)) * (∑ d : Fin 128, x0 (ix2 n d) * x2 (ix2 m d)))
              + (val_main_v10 (F := Ideal) x1 (ix1 n) * val_main_v10 (F := Ideal) x1 (ix1 n))
                  * (Ideal.ofBits .f32 0x00000000#32 + ∑ d : Fin 128, x2 (ix2 m d) * x2 (ix2 m d))))
        * val_main_v21 (F := Ideal) x1 (ix1 n) := by
  have h1 : idx_main_v27 (idx_main_v33 (ix2 n m)) = ix1 n := funext fun a => Fin.ext (by match a with | ⟨0, _⟩ => rfl)
  have h2 : idx_main_v28 (idx_main_v31 (ix2 n m)) = ix1 n := funext fun a => Fin.ext (by match a with | ⟨0, _⟩ => rfl)
  have h3 : idx_main_v36 (idx_main_v38 (ix2 n m)) = ix1 n := funext fun a => Fin.ext (by match a with | ⟨0, _⟩ => rfl)
  have h4 : idx_main_v37 (idx_main_v39 (ix2 n m)) = ix1 m := funext fun a => Fin.ext (by match a with | ⟨0, _⟩ => rfl)
  have h5 : idx_main_v44 (idx_main_v45 (ix2 n m)) = ix1 n := funext fun a => Fin.ext (by match a with | ⟨0, _⟩ => rfl)
  rw [val_main_v46_apply, val_main_v43_apply, val_main_v42_apply, val_main_cst_10_apply, val_main_v41_apply,
    val_main_v34_apply, val_main_v33_apply, val_main_v27_apply, h1, v24_at, val_main_v32_apply, val_main_v31_apply,
    val_main_v30_apply, val_main_v29_apply, val_main_cst_9_apply, val_main_v28_apply, h2, v22_at,
    val_main_v40_apply, val_main_v38_apply, val_main_v36_apply, h3, val_main_v35_apply, val_main_v39_apply,
    val_main_v37_apply, h4, v26_at, val_main_v45_apply, val_main_v44_apply, h5]
  simp only [Ideal.mulf_def, Ideal.addf_def, Ideal.subf_def, Ideal.ofBits_def]

/-- The row maximum at n: the maximum, with the initial value again, of the fold of max over the row's entries from it. -/
theorem v49_at (x0 : (⟨S4096x128, .f32⟩ : BufTy).Contents (Elt Ideal)) (x1 : (⟨S4096, .f32⟩ : BufTy).Contents (Elt Ideal))
    (x2 : (⟨S16384x128, .f32⟩ : BufTy).Contents (Elt Ideal)) (n : Fin 4096) :
    val_main_v49 (F := Ideal) x0 x1 x2 (ix1 n)
      = max (Ideal.ofBits .f32 0xFF800000#32) ((Finset.univ : Finset (Fin 16384)).fold max (Ideal.ofBits .f32 0xFF800000#32)
          (fun m => val_main_v46 (F := Ideal) x0 x1 x2 (ix2 n m))) := by
  rw [val_main_v49_apply, val_main_v48_apply, val_main_cst_12_apply]
  unfold val_main_v47
  rw [hostReduce_max_row reducesTo_S4096x16384_S4096_d1 (by decide) _ _ h_S_ n, val_main_cst_11_apply]
  simp only [Ideal.maximumf_def, Ideal.ofBits_def]

/-- The weight (n, m) before normalisation. -/
theorem v53_at (x0 : (⟨S4096x128, .f32⟩ : BufTy).Contents (Elt Ideal)) (x1 : (⟨S4096, .f32⟩ : BufTy).Contents (Elt Ideal))
    (x2 : (⟨S16384x128, .f32⟩ : BufTy).Contents (Elt Ideal)) (n : Fin 4096) (m : Fin 16384) :
    val_main_v53 (F := Ideal) x0 x1 x2 (ix2 n m)
      = Ideal.exp (val_main_v46 (F := Ideal) x0 x1 x2 (ix2 n m) - val_main_v49 (F := Ideal) x0 x1 x2 (ix1 n)) := by
  have h : idx_main_v50 (idx_main_v51 (ix2 n m)) = ix1 n := funext fun a => Fin.ext (by match a with | ⟨0, _⟩ => rfl)
  rw [val_main_v53_apply, val_main_v52_apply, val_main_v51_apply, val_main_v50_apply, h]
  simp only [Ideal.hostUnary_exp_def, Ideal.subf_def]

/-- The row sum of the weights at n, after the sum's initial value. -/
theorem v54_at (x0 : (⟨S4096x128, .f32⟩ : BufTy).Contents (Elt Ideal)) (x1 : (⟨S4096, .f32⟩ : BufTy).Contents (Elt Ideal))
    (x2 : (⟨S16384x128, .f32⟩ : BufTy).Contents (Elt Ideal)) (n : Fin 4096) :
    val_main_v54 (F := Ideal) x0 x1 x2 (ix1 n)
      = Ideal.ofBits .f32 0x00000000#32 + ∑ m : Fin 16384, val_main_v53 (F := Ideal) x0 x1 x2 (ix2 n m) := by
  rw [val_main_v54_apply, val_main_cst_13_apply]
  refine congrArg (_ + ·) (Finset.sum_congr rfl fun k _ => ?_)
  have hi : idx_main_v54 (ix1 n) k = ix2 n k := funext fun a => Fin.ext (by match a with | ⟨0, _⟩ => rfl | ⟨1, _⟩ => rfl)
  rw [hi]

/-- The normalised weight (n, m). -/
theorem v57_at (x0 : (⟨S4096x128, .f32⟩ : BufTy).Contents (Elt Ideal)) (x1 : (⟨S4096, .f32⟩ : BufTy).Contents (Elt Ideal))
    (x2 : (⟨S16384x128, .f32⟩ : BufTy).Contents (Elt Ideal)) (n : Fin 4096) (m : Fin 16384) :
    val_main_v57 (F := Ideal) x0 x1 x2 (ix2 n m)
      = Ideal.div (val_main_v53 (F := Ideal) x0 x1 x2 (ix2 n m)) (val_main_v54 (F := Ideal) x0 x1 x2 (ix1 n)) := by
  have h : idx_main_v55 (idx_main_v56 (ix2 n m)) = ix1 n := funext fun a => Fin.ext (by match a with | ⟨0, _⟩ => rfl)
  rw [val_main_v57_apply, val_main_v56_apply, val_main_v55_apply, h]
  simp only [Ideal.hostDivf_def]

/-- The weighted sum of the keys at (n, d). -/
theorem v58_at (x0 : (⟨S4096x128, .f32⟩ : BufTy).Contents (Elt Ideal)) (x1 : (⟨S4096, .f32⟩ : BufTy).Contents (Elt Ideal))
    (x2 : (⟨S16384x128, .f32⟩ : BufTy).Contents (Elt Ideal)) (n : Fin 4096) (d : Fin 128) :
    val_main_v58 (F := Ideal) x0 x1 x2 (ix2 n d)
      = ∑ m : Fin 16384, val_main_v57 (F := Ideal) x0 x1 x2 (ix2 n m) * x2 (ix2 m d) := by
  rw [val_main_v58_apply]
  refine Finset.sum_congr rfl fun k _ => ?_
  have hl : lidx_main_v58 (ix2 n d) k = ix2 n k := funext fun a => Fin.ext (by match a with | ⟨0, _⟩ => rfl | ⟨1, _⟩ => rfl)
  have hr : ridx_main_v58 (ix2 n d) k = ix2 k d := funext fun a => Fin.ext (by match a with | ⟨0, _⟩ => rfl | ⟨1, _⟩ => rfl)
  rw [hl, hr]

/-- The result at (n, d): no extended real differs from itself, so the select keeps the weighted sum. -/
theorem v64_at (x0 : (⟨S4096x128, .f32⟩ : BufTy).Contents (Elt Ideal)) (x1 : (⟨S4096, .f32⟩ : BufTy).Contents (Elt Ideal))
    (x2 : (⟨S16384x128, .f32⟩ : BufTy).Contents (Elt Ideal)) (n : Fin 4096) (d : Fin 128) :
    val_main_v64 (F := Ideal) x0 x1 x2 (ix2 n d)
      = (val_main_v58 (F := Ideal) x0 x1 x2 (ix2 n d) - x0 (ix2 n d)) * val_main_v21 (F := Ideal) x1 (ix1 n) := by
  have h : idx_main_v62 (idx_main_v63 (ix2 n d)) = ix1 n := funext fun a => Fin.ext (by match a with | ⟨0, _⟩ => rfl)
  have hc : ∀ q : EReal, FloatOps.cmpf (F := Ideal) (φ := .f32) .une q q = 0#1 := fun q => by
    rw [Ideal.cmpf_def]; simp [Ideal.cmp]
  rw [val_main_v64_apply, val_main_v63_apply, val_main_v62_apply, h, val_main_v61_apply, val_main_v60_apply,
    val_main_v59_apply, hc, select_zero]
  simp only [Ideal.mulf_def, Ideal.subf_def]

/-! ## The reference is the score -/

/-- On real entries, and with the two per-row arrays real, the reference's result is the specification's score of the
    same arrays: the log-density entry is a row constant plus the logit, and the softmax-weighted average does not see
    the constant. -/
theorem ref_eq_score
    (x0 : (⟨S4096x128, .f32⟩ : BufTy).Contents (Elt Ideal)) (x1 : (⟨S4096, .f32⟩ : BufTy).Contents (Elt Ideal)) (x2 : (⟨S16384x128, .f32⟩ : BufTy).Contents (Elt Ideal))
    (hx : ∀ i, Cert.Algebra.IsReal (x0 i)) (hy : ∀ i, Cert.Algebra.IsReal (x2 i))
    (hmean : ∀ i, Cert.Algebra.IsReal (Read.val_main_v10 (F := Ideal) x1 i)) (hiv : ∀ i, Cert.Algebra.IsReal (Read.val_main_v21 (F := Ideal) x1 i)) :
    Read.val_main_v64 (F := Ideal) x0 x1 x2
      = Cert.Gmm.score x0 (Read.val_main_v10 (F := Ideal) x1) (Read.val_main_v21 (F := Ideal) x1) x2 := by
  funext i
  obtain ⟨n, d, rfl⟩ : ∃ (n : Fin 4096) (d : Fin 128), i = ix2 n d := ⟨i 0, i 1, eq_ix2 i⟩
  rw [score_ix2, v64_at, scoreAt]
  refine congrArg (fun q => (q - x0 (ix2 n d)) * val_main_v21 (F := Ideal) x1 (ix1 n)) ?_
  have hμ := hmean (ix1 n)
  have hv := hiv (ix1 n)
  have hX : IsReal (∑ d : Fin 128, x0 (ix2 n d) * x0 (ix2 n d)) := IsReal.sum _ _ fun d _ => (hx _).mul (hx _)
  have hs : ∀ m : Fin 16384, IsReal (∑ d : Fin 128, x0 (ix2 n d) * x2 (ix2 m d)) :=
    fun m => IsReal.sum _ _ fun d _ => (hx _).mul (hy _)
  have hw : ∀ m : Fin 16384, IsReal (∑ d : Fin 128, x2 (ix2 m d) * x2 (ix2 m d)) :=
    fun m => IsReal.sum _ _ fun d _ => (hy _).mul (hy _)
  have hL : ∀ m : Fin 16384, val_main_v46 (F := Ideal) x0 x1 x2 (ix2 n m)
      = (((-1/2 : ℝ) : EReal) * (∑ d : Fin 128, x0 (ix2 n d) * x0 (ix2 n d)) * val_main_v21 (F := Ideal) x1 (ix1 n))
        + logit x0 (val_main_v10 (F := Ideal) x1) (val_main_v21 (F := Ideal) x1) x2 n m := fun m => by
    rw [v46_at, logit]
    exact logit_shift hX (hs m) (hw m) hμ hv
  rw [v58_at]
  simp only [v57_at, v54_at, v53_at, v49_at]
  rw [ofBits_neg_inf, Ideal.ofBits_zero_f32]
  exact softmax_shift (by norm_num) (fun m => val_main_v46 (F := Ideal) x0 x1 x2 (ix2 n m)) _ (fun m => x2 (ix2 m d)) _
    (isReal_rowConst hX hv) hL (fun m => by rw [logit]; exact isReal_logit (hs m) (hw m) hμ hv) (fun m => hy _)

end Cert.Gmm.Ref

end
-- ==== Proof.lean ====
/-
  The certificate of a Gaussian-kernel softmax score: for 4096 queries x_n at times t_n and 16384 keys y_m,

      score(n, d) = (Σ_m softmax_m(−1/2 · |x_n − mean(t_n) · y_m|² / σ²(t_n)) · y_m[d]  −  x_n[d]) / σ²(t_n).

  The kernel tiles the queries by 128 rows, keeps the keys resident, expands the square, drops the term |x_n|² / σ²
  that does not depend on m, splits the query–key product into a rounded part and remainders (which vanish on the
  extended reals, a change of format being the identity and a real minus itself zero), and divides the weighted key sum
  by the weight sum. The reference forms the full squared distance, normalises the weights first and multiplies after.
  For finite inputs all quantities are real numbers and the two agree entry by entry:
    · the dropped term shifts every logit of a row by one real constant, which the softmax cancels (Proof/RefAlgebra);
    · Σ_m (e_m / l) · y_m = (Σ_m e_m · y_m) / l for a positive real l (same module);
    · what one grid point writes back is one 128 × 128 block of the score (Proof/KernelRow, Proof/KernelBlocks), and
      the 32 blocks tile the output (Proof/KernelFinal);
    · the reference's composed operations read at an index are the score (Proof/RefScore).
  The frames are the generated ones; the one ledger entry (a narrowing then widening of format replaced by the
  identity) is the rule's own statement.
-/
import proofs.«171520_j7112465842631_2_alg».proof.Defs
import proofs.«171520_j7112465842631_2_alg».proof.Proof.Gen.Kernel
import proofs.«171520_j7112465842631_2_alg».proof.Proof.Gen.Kernel.Skeleton
import proofs.«171520_j7112465842631_2_alg».proof.Proof.Gen.Kernel.Launch
import proofs.«171520_j7112465842631_2_alg».proof.Proof.Gen.Kernel.Points
import proofs.«171520_j7112465842631_2_alg».proof.Proof.Gen.Kernel.Frame
import proofs.«171520_j7112465842631_2_alg».proof.Proof.Gen.KernelIdeal
import proofs.«171520_j7112465842631_2_alg».proof.Proof.Gen.KernelIdeal.Skeleton
import proofs.«171520_j7112465842631_2_alg».proof.Proof.Gen.KernelIdeal.Launch
import proofs.«171520_j7112465842631_2_alg».proof.Proof.Gen.KernelIdeal.Points
import proofs.«171520_j7112465842631_2_alg».proof.Proof.Gen.KernelIdeal.Frame
import proofs.«171520_j7112465842631_2_alg».proof.Proof.Gen.ReferenceIdeal
import proofs.«171520_j7112465842631_2_alg».proof.Proof.Gen.Pre_finite_inputs
import proofs.«171520_j7112465842631_2_alg».proof.Proof.Gen.KernelIdeal.Value
import proofs.«171520_j7112465842631_2_alg».proof.Proof.Gen.ReferenceIdeal.Run
import proofs.«171520_j7112465842631_2_alg».proof.Proof.Gen.ReferenceIdeal.Read
import proofs.«171520_j7112465842631_2_alg».proof.Proof.Finite
import proofs.«171520_j7112465842631_2_alg».proof.Proof.ScaleReal
import proofs.«171520_j7112465842631_2_alg».proof.Proof.KernelFinal
import proofs.«171520_j7112465842631_2_alg».proof.Proof.RefScore
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger's one entry: widening after narrowing is the identity on extended reals, and the rounding through the
    narrow format on words. -/
theorem preserves : Cert.preserves_Kernel_KernelIdeal :=
  IdealRules.truncf_extf.statement Cert.KernelIdeal.S128x128 .f32 .bf16

/-- Both idealized programs end with the score of the argument arrays. -/
theorem algebraic : Cert.algebraic_KernelIdeal_ReferenceIdeal := by
  intro m ρ m' ρ' hpre hagree
  have hreal : ∀ c : Dev Cert.KernelIdeal.nD, _ := fun c => Cert.Gmm.real_of_pre _ _ _ (hpre c)
  refine ⟨fun c => Cert.Gmm.Kernel.scoreOf m c,
    Cert.Gmm.Kernel.run m ρ (fun c => (hreal c).1) (fun c => (hreal c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2]
  exact Cert.Gmm.Ref.ref_eq_score _ _ _ (hreal c).1 (hreal c).2.2
    (Cert.Gmm.isReal_mean _ (hreal c).2.1) (Cert.Gmm.isReal_invVar _ (hreal c).2.1)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
